-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000x128 : Shape := ⟨2, ![200000, 128]⟩
abbrev S500000 : Shape := ⟨1, ![500000]⟩
abbrev S256x512 : Shape := ⟨2, ![256, 512]⟩
abbrev S512 : Shape := ⟨1, ![512]⟩
abbrev S128x512 : Shape := ⟨2, ![128, 512]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_arg6 : FVec F S512 .f32) (main_arg7 : FVec F S128x512 .f32) (main_arg8 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S128x512 .f32 := Host.absf main_arg7
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S200000x256 .f32) (main_arg1 : FVec F S200000x128 .f32) (main_arg2 : FVec F S200000x128 .f32) (main_arg3 : IVec S500000 32) (main_arg4 : IVec S500000 32) (main_arg5 : FVec F S256x512 .f32) (main_arg6 : FVec F S512 .f32) (main_arg7 : FVec F S128x512 .f32) (main_arg8 : FVec F S512 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S200000x128 .f32 := Host.absf main_arg2
  let main_cst_2 : FVec F S_ .f32 := constant S_ .f32 0x7F800000#32
  let main_v10 : FVec F S200000x128 .f32 := broadcastInDim S200000x128 ![] bcast_S_S200000x128 main_cst_2
  let main_v11 : IVec S200000x128 1 := cmpf .olt main_v9 main_v10
  let main_c_3 : IVec S_ 1 := constantI S_ 1 1#1
  let main_v12 : IVec S_ 1 := (fun x v => Host.reduce IntOp.andi x v reducesTo_S200000x128_S_d0_1 h_S_) main_v11 main_c_3
  let main_v13 : IVec S_ 1 := andi main_v8 main_v12
  let main_v14 : FVec F S256x512 .f32 := Host.absf main_arg5
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg6 main_arg7 main_arg8 main_v13 main_v16
-- ==== Kernel.lean ====
abbrev S200000x256 : Shape := ⟨2, ![200000, 256]⟩
abbrev S200000x128 : Shape := ⟨2, ![200000, 128]⟩
abbrev S500000 : Shape := ⟨1, ![500000]⟩
abbrev S256x512 : Shape := ⟨2, ![256, 512]⟩
abbrev S512 : Shape := ⟨1, ![512]⟩
abbrev S128x512 : Shape := ⟨2, ![128, 512]⟩
abbrev S_ : Shape := ⟨0, ![]⟩
abbrev S500000x1 : Shape := ⟨2, ![500000, 1]⟩
abbrev S500000x128 : Shape := ⟨2, ![500000, 128]⟩
abbrev S1x512 : Shape := ⟨2, ![1, 512]⟩
abbrev S2000x256 : Shape := ⟨2, ![2000, 256]⟩
abbrev S2000x128 : Shape := ⟨2, ![2000, 128]⟩
abbrev S2000x512 : Shape := ⟨2, ![2000, 512]⟩

abbrev nBuf : Space → Nat
  | .hbm => 39
  | .vmem => 14
  | .smem => 0
  | _ => 0

abbrev bufTy : (tb : Table) → Fin (tcTables nBuf tb) → BufTy
  | .hbm, ⟨0, _⟩ => ⟨S200000x256, .f32⟩
  | .hbm, ⟨1, _⟩ => ⟨S200000x128, .f32⟩
  | .hbm, ⟨2, _⟩ => ⟨S200000x128, .f32⟩
  | .hbm, ⟨3, _⟩ => ⟨S500000, .i32⟩
  | .hbm, ⟨4, _⟩ => ⟨S500000, .i32⟩
  | .hbm, ⟨5, _⟩ => ⟨S256x512, .f32⟩
  | .hbm, ⟨6, _⟩ => ⟨S512, .f32⟩
  | .hbm, ⟨7, _⟩ => ⟨S128x512, .f32⟩
  | .hbm, ⟨8, _⟩ => ⟨S512, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S_, .f32⟩
  | .hbm, ⟨19, _⟩ => ⟨S200000x128, .f32⟩
  | .hbm, ⟨20, _⟩ => ⟨S500000x1, .i32⟩
  | .hbm, ⟨21, _⟩ => ⟨S200000x128, .f32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x128, .f32⟩
  | .hbm, ⟨31, _⟩ => ⟨S_, .f32⟩
  | .hbm, ⟨32, _⟩ => ⟨S200000x128, .f32⟩
  | .hbm, ⟨33, _⟩ => ⟨S500000x1, .i32⟩
  | .hbm, ⟨34, _⟩ => ⟨S200000x128, .f32⟩
  | .hbm, ⟨35, _⟩ => ⟨S1x512, .f32⟩
  | .hbm, ⟨36, _⟩ => ⟨S1x512, .f32⟩
  | .hbm, ⟨37, _⟩ => ⟨S200000x128, .f32⟩
  | .hbm, ⟨38, _⟩ => ⟨S200000x128, .f32⟩
  | .local _ .vmem, ⟨0, _⟩ => ⟨S2000x256, .f32⟩
  | .local _ .vmem, ⟨1, _⟩ => ⟨S2000x256, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S256x512, .f32⟩
  | .local _ .vmem, ⟨7, _⟩ => ⟨S1x512, .f32⟩
  | .local _ .vmem, ⟨8, _⟩ => ⟨S128x512, .f32⟩
  | .local _ .vmem, ⟨9, _⟩ => ⟨S1x512, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S200000x128 : S_.BroadcastsInDim S200000x128 (![] : Fin 0 → Fin S200000x128.rank)
  shapeCasts_S512_S1x512 : S512.ShapeCasts S1x512
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  slices_S2000x512_o0_0_S2000x128 : S2000x512.Slices ![0, 0] S2000x128
  slices_S2000x512_o0_128_S2000x128 : S2000x512.Slices ![0, 128] S2000x128
  slices_S2000x512_o0_256_S2000x128 : S2000x512.Slices ![0, 256] S2000x128
  slices_S2000x512_o0_384_S2000x128 : S2000x512.Slices ![0, 384] S2000x128
  gather_S200000x128_S500000x1_S500000x128_1_0_n_n_0_1_1128_wf : GatherDims.WF S200000x128 S500000x1 S500000x128 [1] [0] [] [0] [] 1 ![1, 128]
  scatter_S200000x128_S500000x1_S500000x128_1_0_0_1_wf : ScatterDims.WF S200000x128 S500000x1 S500000x128 [1] [0] [0] 1
  dot_S2000x256_S256x512_S2000x512_1_0_0_1_n_n_wf : DotDims.WF S2000x256 S256x512 S2000x512 [1] [0] [0] [1] [] []
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .f32 = 32 ∨ (Rect.block (s := S200000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S200000x128.size a
  hwx0_2 : ∀ i : grid0.Coords, EltTy.bits .f32 = 32 ∨ (Rect.block (s := S200000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S200000x128.size a
  hwx0_7 : ∀ i : grid0.Coords, EltTy.bits .f32 = 32 ∨ (Rect.block (s := S200000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S200000x128.size a
  hwx0_8 : ∀ i : grid0.Coords, EltTy.bits .f32 = 32 ∨ (Rect.block (s := S200000x128) S2000x128.size (cc0_transform_8 i) (hinb0_8 i)).WholeWords (EltTy.packing .f32)

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v22_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S200000x256 : Shape := ⟨2, ![200000, 256]⟩
abbrev S200000x128 : Shape := ⟨2, ![200000, 128]⟩
abbrev S500000 : Shape := ⟨1, ![500000]⟩
abbrev S256x512 : Shape := ⟨2, ![256, 512]⟩
abbrev S512 : Shape := ⟨1, ![512]⟩
abbrev S128x512 : Shape := ⟨2, ![128, 512]⟩
abbrev S200000x512 : Shape := ⟨2, ![200000, 512]⟩
abbrev S1x512 : Shape := ⟨2, ![1, 512]⟩
abbrev S_ : Shape := ⟨0, ![]⟩
abbrev S500000x1 : Shape := ⟨2, ![500000, 1]⟩
abbrev S500000x128 : Shape := ⟨2, ![500000, 128]⟩

abbrev nBuf : Space → Nat
  | .hbm => 78
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000x128, .f32⟩
  | .hbm, ⟨2, _⟩ => ⟨S200000x128, .f32⟩
  | .hbm, ⟨3, _⟩ => ⟨S500000, .i32⟩
  | .hbm, ⟨4, _⟩ => ⟨S500000, .i32⟩
  | .hbm, ⟨5, _⟩ => ⟨S256x512, .f32⟩
  | .hbm, ⟨6, _⟩ => ⟨S512, .f32⟩
  | .hbm, ⟨7, _⟩ => ⟨S128x512, .f32⟩
  | .hbm, ⟨8, _⟩ => ⟨S512, .f32⟩
  | .hbm, ⟨9, _⟩ => ⟨S200000x512, .f32⟩
  | .hbm, ⟨10, _⟩ => ⟨S1x512, .f32⟩
  | .hbm, ⟨11, _⟩ => ⟨S200000x512, .f32⟩
  | .hbm, ⟨12, _⟩ => ⟨S200000x512, .f32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000x128, .f32⟩
  | .hbm, ⟨22, _⟩ => ⟨S_, .f32⟩
  | .hbm, ⟨23, _⟩ => ⟨S200000x128, .f32⟩
  | .hbm, ⟨24, _⟩ => ⟨S500000x1, .i32⟩
  | .hbm, ⟨25, _⟩ => ⟨S200000x128, .f32⟩
  | .hbm, ⟨26, _⟩ => ⟨S_, .i32⟩
  | .hbm, ⟨27, _⟩ => ⟨S500000, .i32⟩
  | .hbm, ⟨28, _⟩ => ⟨S500000, .i1⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S500000, .i32⟩
  | .hbm, ⟨33, _⟩ => ⟨S500000x1, .i32⟩
  | .hbm, ⟨34, _⟩ => ⟨S500000x128, .f32⟩
  | .hbm, ⟨35, _⟩ => ⟨S_, .f32⟩
  | .hbm, ⟨36, _⟩ => ⟨S200000x128, .f32⟩
  | .hbm, ⟨37, _⟩ => ⟨S500000x1, .i32⟩
  | .hbm, ⟨38, _⟩ => ⟨S200000x128, .f32⟩
  | .hbm, ⟨39, _⟩ => ⟨S200000x512, .f32⟩
  | .hbm, ⟨40, _⟩ => ⟨S1x512, .f32⟩
  | .hbm, ⟨41, _⟩ => ⟨S200000x512, .f32⟩
  | .hbm, ⟨42, _⟩ => ⟨S200000x512, .f32⟩
  | .hbm, ⟨43, _⟩ => ⟨S200000x512, .f32⟩
  | .hbm, ⟨44, _⟩ => ⟨S200000x128, .f32⟩
  | .hbm, ⟨45, _⟩ => ⟨S200000x128, .f32⟩
  | .hbm, ⟨46, _⟩ => ⟨S200000x128, .f32⟩
  | .hbm, ⟨47, _⟩ => ⟨S200000x128, .f32⟩
  | .hbm, ⟨48, _⟩ => ⟨S200000x128, .f32⟩
  | .hbm, ⟨49, _⟩ => ⟨S200000x128, .f32⟩
  | .hbm, ⟨50, _⟩ => ⟨S_, .f32⟩
  | .hbm, ⟨51, _⟩ => ⟨S200000x128, .f32⟩
  | .hbm, ⟨52, _⟩ => ⟨S200000x128, .f32⟩
  | .hbm, ⟨53, _⟩ => ⟨S_, .f32⟩
  | .hbm, ⟨54, _⟩ => ⟨S200000x128, .f32⟩
  | .hbm, ⟨55, _⟩ => ⟨S200000x128, .f32⟩
  | .hbm, ⟨56, _⟩ => ⟨S200000x128, .f32⟩
  | .hbm, ⟨57, _⟩ => ⟨S200000x128, .f32⟩
  | .hbm, ⟨58, _⟩ => ⟨S_, .f32⟩
  | .hbm, ⟨59, _⟩ => ⟨S200000x128, .f32⟩
  | .hbm, ⟨60, _⟩ => ⟨S200000x128, .f32⟩
  | .hbm, ⟨61, _⟩ => ⟨S_, .f32⟩
  | .hbm, ⟨62, _⟩ => ⟨S200000x128, .f32⟩
  | .hbm, ⟨63, _⟩ => ⟨S200000x128, .f32⟩
  | .hbm, ⟨64, _⟩ => ⟨S200000x128, .f32⟩
  | .hbm, ⟨65, _⟩ => ⟨S200000x128, .f32⟩
  | .hbm, ⟨66, _⟩ => ⟨S200000x128, .f32⟩
  | .hbm, ⟨67, _⟩ => ⟨S_, .f32⟩
  | .hbm, ⟨68, _⟩ => ⟨S200000x128, .f32⟩
  | .hbm, ⟨69, _⟩ => ⟨S200000x128, .f32⟩
  | .hbm, ⟨70, _⟩ => ⟨S_, .f32⟩
  | .hbm, ⟨71, _⟩ => ⟨S200000x128, .f32⟩
  | .hbm, ⟨72, _⟩ => ⟨S200000x128, .f32⟩
  | .hbm, ⟨73, _⟩ => ⟨S200000x128, .f32⟩
  | .hbm, ⟨74, _⟩ => ⟨S200000x128, .f32⟩
  | .hbm, ⟨75, _⟩ => ⟨S200000x128, .f32⟩
  | .hbm, ⟨76, _⟩ => ⟨S200000x128, .f32⟩
  | .hbm, ⟨77, _⟩ => ⟨S200000x128, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S200000x128 : S_.BroadcastsInDim S200000x128 (![] : Fin 0 → Fin S200000x128.rank)
  slices_S200000x512_S200000x128_0_0 : S200000x512.Slices ![0, 0] S200000x128
  slices_S200000x512_S200000x128_0_128 : S200000x512.Slices ![0, 128] S200000x128
  slices_S200000x512_S200000x128_0_256 : S200000x512.Slices ![0, 256] S200000x128
  slices_S200000x512_S200000x128_0_384 : S200000x512.Slices ![0, 384] S200000x128
  dot_S200000x256_S256x512_S200000x512_1_0_0_1_n_n_wf : DotDims.WF S200000x256 S256x512 S200000x512 [1] [0] [0] [1] [] []
  gather_S200000x128_S500000x1_S500000x128_1_0_n_n_0_1_1128_wf : GatherDims.WF S200000x128 S500000x1 S500000x128 [1] [0] [] [0] [] 1 ![1, 128]
  scatter_S200000x128_S500000x1_S500000x128_1_0_0_1_wf : ScatterDims.WF S200000x128 S500000x1 S500000x128 [1] [0] [0] 1
  dot_S200000x128_S128x512_S200000x512_1_0_0_1_n_n_wf : DotDims.WF S200000x128 S128x512 S200000x512 [1] [0] [0] [1] [] []

variable [Facts₀]

def dot_S200000x256_S256x512_S200000x512_1_0_0_1_n_n : DotDims S200000x256 S256x512 S200000x512 where
  lhsContracting := [1]
  rhsContracting := [0]
  lhsNonContracting := [0]
  rhsNonContracting := [1]
  lhsBatch := []
  rhsBatch := []
  wf := dot_S200000x256_S256x512_S200000x512_1_0_0_1_n_n_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def dot_S200000x128_S128x512_S200000x512_1_0_0_1_n_n : DotDims S200000x128 S128x512 S200000x512 where
  lhsContracting := [1]
  rhsContracting := [0]
  lhsNonContracting := [0]
  rhsNonContracting := [1]
  lhsBatch := []
  rhsBatch := []
  wf := dot_S200000x128_S128x512_S200000x512_1_0_0_1_n_n_wf

class Facts : Prop extends Facts₀ where

variable [Facts]
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.Preact.lean ====
/-
  The kernel body's pre-activation, read at an entry.

  On a block of 2000 nodes the body forms ONE 2000×512 array: the block of `x` times `W` plus the bias row `bW`, plus the
  block of the children's hidden sums times `U` plus the bias row `bU`. Each product is accumulated from zero, so at
  entry `(p, q)` it is the plain sum over the contracted index; the narrowing of the factors to sixteen bits is the
  identity on the extended reals; a `1×512` bias row spread over the 2000 rows reads, at `(p, q)`, its entry `(0, q)`.
-/
import proofs.«145560_j25254407701045_1_alg».proof.Proof.Gen.KernelIdeal.Skeleton
import proofs.«145560_j25254407701045_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Preact

open Cert.KernelIdeal Cert.KernelIdeal.Gen Idealize.ShloMosaic Idealize.ShloMosaic.ValueIdx

/-- The first product's dimension numbers are those of a plain `2000×256` by `256×512` product. -/
theorem dot_x : dot_S2000x256_S256x512_S2000x512_1_0_0_1_n_n = DotDims.plain 2000 256 512 := rfl

/-- The second product's dimension numbers are those of a plain `2000×128` by `128×512` product. -/
theorem dot_h : dot_S2000x128_S128x512_S2000x512_1_0_0_1_n_n = DotDims.plain 2000 128 512 := rfl

/-- THE BODY'S PRE-ACTIVATION at `(p, q)`: `(Σₖ x[p,k]·W[k,q] + bW[0,q]) + (Σₖ hin[p,k]·U[k,q] + bU[0,q])`. -/
theorem pay1_apply (P0 : Vec Ideal S2000x256 .f32) (P1 : Vec Ideal S256x512 .f32) (P2 : Vec Ideal S1x512 .f32)
    (P3 : Vec Ideal S2000x128 .f32) (P4 : Vec Ideal S128x512 .f32) (P5 : Vec Ideal S1x512 .f32)
    (p : Fin 2000) (q : Fin 512) :
    k0_pay1 P0 P1 P2 P3 P4 P5 (ix2 p q)
      = ((∑ k : Fin 256, P0 (ix2 p k) * P1 (ix2 k q)) + P2 (ix2 (0 : Fin 1) q))
        + ((∑ k : Fin 128, P3 (ix2 p k) * P4 (ix2 k q)) + P5 (ix2 (0 : Fin 1) q)) := by
  unfold k0_pay1
  rw [addf_apply, addf_apply, addf_apply]
  rw [shapeCast_self P2, shapeCast_self P3, shapeCast_self P5]
  rw [broadcastTo_1b_ab_apply, broadcastTo_1b_ab_apply]
  rw [dot_x, dot_h, Cert.Lib.plain_matmul_zero_apply, Cert.Lib.plain_matmul_zero_apply]
  rfl

end Cert.KernelIdeal.Preact

end
-- ==== Proof.Cell.lean ====
/-
  One step of a child-sum tree-LSTM cell, entry by entry, on the extended reals.

  For a node `r` (of 200000) and a hidden unit `j` (of 128), with `hin`, `cin` the sums of the children's hidden and
  memory states, `W : 256×512`, `U : 128×512` the two weight matrices and `bW`, `bU : 512` their biases, the four gates read
  four consecutive blocks of 128 columns of ONE pre-activation row of 512 entries:

    a(r, q)  = (Σₖ x[r,k]·W[k,q] + bW[q]) + (Σₖ hin[r,k]·U[k,q] + bU[q])          (q of 512)
    i = σ(a(r, j))      o = σ(a(r, 128 + j))      u = tanh(a(r, 256 + j))      f = σ(a(r, 384 + j))
    c'(r, j) = i·u + f·cin[r,j]
    h'(r, j) = o·tanh(c'(r, j))

  with `σ t = 1 / (1 + e⁻ᵗ)` the logistic function. The grouping of the sums and products is the one written: no law of
  the extended reals is used to rearrange it, so nothing here asks the entries to be finite.

  Also here: the logistic function written out with the float `1.0` is the logistic function (`logistic_spelt`).
-/
import Idealize.ShloMosaic.PureOps.Ideal
import Idealize.ShloMosaic.PureOps.IdealRules
import Idealize.ShloMosaic.Lib.ValueIdx

noncomputable section

namespace Cert.TreeCell

open Idealize.ShloMosaic Idealize.ShloMosaic.ValueIdx

/-- Column `off + j` of the 512 gate columns: hidden unit `j`'s entry in the block of 128 columns that starts at `off`. -/
abbrev col (off : Nat) (hoff : off + 128 ≤ 512) (j : Fin 128) : Fin 512 :=
  ⟨j.val + off, by have := j.isLt; omega⟩

section
variable (x : (⟨2, ![200000, 256]⟩ : Shape).Idx → EReal) (hin cin : (⟨2, ![200000, 128]⟩ : Shape).Idx → EReal)
  (W : (⟨2, ![256, 512]⟩ : Shape).Idx → EReal) (bW : (⟨1, ![512]⟩ : Shape).Idx → EReal)
  (U : (⟨2, ![128, 512]⟩ : Shape).Idx → EReal) (bU : (⟨1, ![512]⟩ : Shape).Idx → EReal)

/-- THE PRE-ACTIVATION of node `r` at gate column `q`: the input's affine image plus the children's. -/
def preact (r : Fin 200000) (q : Fin 512) : EReal :=
  ((∑ k : Fin 256, x (ix2 r k) * W (ix2 k q)) + bW (ix1 q)) + ((∑ k : Fin 128, hin (ix2 r k) * U (ix2 k q)) + bU (ix1 q))

/-- THE NEW MEMORY of node `r`, unit `j`: input gate times update, plus forget gate times the children's memory. -/
def newC (r : Fin 200000) (j : Fin 128) : EReal :=
  Ideal.logistic (preact x hin W bW U bU r (col 0 (by norm_num) j)) * Ideal.tanh (preact x hin W bW U bU r (col 256 (by norm_num) j))
    + Ideal.logistic (preact x hin W bW U bU r (col 384 (by norm_num) j)) * cin (ix2 r j)

/-- THE NEW HIDDEN STATE of node `r`, unit `j`: output gate times `tanh` of the new memory. -/
def newH (r : Fin 200000) (j : Fin 128) : EReal :=
  Ideal.logistic (preact x hin W bW U bU r (col 128 (by norm_num) j)) * Ideal.tanh (newC x hin cin W bW U bU r j)

/-- The new memory as a whole array. -/
def newCArr : (⟨2, ![200000, 128]⟩ : Shape).Idx → EReal := fun i => newC x hin cin W bW U bU (i 0) (i 1)

/-- The new hidden state as a whole array. -/
def newHArr : (⟨2, ![200000, 128]⟩ : Shape).Idx → EReal := fun i => newH x hin cin W bW U bU (i 0) (i 1)

theorem newCArr_ix2 (r : Fin 200000) (j : Fin 128) :
    newCArr x hin cin W bW U bU (ix2 r j) = newC x hin cin W bW U bU r j := rfl

theorem newHArr_ix2 (r : Fin 200000) (j : Fin 128) :
    newHArr x hin cin W bW U bU (ix2 r j) = newH x hin cin W bW U bU r j := rfl

end

/-- The float `1.0` is the real number one. -/
theorem one_f32 : Ideal.ofBits .f32 0x3F800000#32 = 1 := IdealRules.sign_bit.ideal_onePat .f32

/-- THE LOGISTIC FUNCTION WRITTEN OUT, `1.0 / (1.0 + exp (-t))` in the host's operations, is the logistic function, at every
    extended real: the logistic function is by definition that quotient, `0` at `-∞` and `1` at `+∞` included. -/
theorem logistic_spelt (t : EReal) :
    FloatOps.hostDivf (F := Ideal) (φ := .f32) (FloatOps.ofBits .f32 0x3F800000#32)
        (FloatOps.addf (FloatOps.ofBits .f32 0x3F800000#32) (FloatOps.hostUnary .exp (FloatOps.hostNegf t)))
      = Ideal.logistic t := by
  rw [Ideal.ofBits_def, one_f32]
  rfl

end Cert.TreeCell

end
-- ==== Proof.BlockCell.lean ====
/-
  One block of the kernel's two outputs is the cell, entry by entry.

  The body leaves in its two output blocks the functions `E7` (new hidden state) and `E8` (new memory) of the seven blocks
  it loaded: the gates are read from four blocks of 128 columns of the body's pre-activation, at column offsets 128, 0,
  256, 384 for the output, input, update and forget gates. If at block row `p` the loaded blocks hold row `r` of `x`, of
  the children's hidden sums and of the children's memory sums, and the whole of `W`, `U` and of the two bias rows, then
  entry `(p, j)` of the blocks is the cell's new hidden state and new memory at array entry `(r, j)`.
-/
import proofs.«145560_j25254407701045_1_alg».proof.Proof.Gen.KernelIdeal.Value
import proofs.«145560_j25254407701045_1_alg».proof.Proof.Preact
import proofs.«145560_j25254407701045_1_alg».proof.Proof.Cell

noncomputable section

namespace Cert.KernelIdeal.BlockCell

open Cert.KernelIdeal Cert.KernelIdeal.Gen Idealize.ShloMosaic Idealize.ShloMosaic.ValueIdx Cert.TreeCell

section
variable (x : S200000x256.Idx → EReal) (hin cin : S200000x128.Idx → EReal)
  (W : S256x512.Idx → EReal) (bW : S512.Idx → EReal) (U : S128x512.Idx → EReal) (bU : S512.Idx → EReal)
  (P0 : Vec Ideal S2000x256 .f32) (P1 : Vec Ideal S256x512 .f32) (P2 : Vec Ideal S1x512 .f32)
  (P3 : Vec Ideal S2000x128 .f32) (P4 : Vec Ideal S128x512 .f32) (P5 : Vec Ideal S1x512 .f32)
  (P6 : Vec Ideal S2000x128 .f32)

/-- The body's pre-activation at block row `p` is the cell's at array row `r`, when the blocks hold row `r` of `x` and of
    the children's hidden sums, and the weights and bias rows whole. -/
theorem preact_block (p : Fin 2000) (r : Fin 200000)
    (h0 : ∀ k : Fin 256, P0 (ix2 p k) = x (ix2 r k))
    (h1 : ∀ (k : Fin 256) (q : Fin 512), P1 (ix2 k q) = W (ix2 k q))
    (h2 : ∀ q : Fin 512, P2 (ix2 (0 : Fin 1) q) = bW (ix1 q))
    (h3 : ∀ k : Fin 128, P3 (ix2 p k) = hin (ix2 r k))
    (h4 : ∀ (k : Fin 128) (q : Fin 512), P4 (ix2 k q) = U (ix2 k q))
    (h5 : ∀ q : Fin 512, P5 (ix2 (0 : Fin 1) q) = bU (ix1 q)) (q : Fin 512) :
    k0_pay1 P0 P1 P2 P3 P4 P5 (ix2 p q) = preact x hin W bW U bU r q := by
  rw [Preact.pay1_apply, h2, h5]
  unfold preact
  simp only [h0, h1, h3, h4]

/-- Where the output block's entry `(p, j)` reads the pre-activation: the output gate's columns start at 128 … -/
theorem ix7_0_eq (p : Fin 2000) (j : Fin 128) : Value.ix7_0 (ix2 p j) = ix2 p (col 128 (by norm_num) j) := by
  funext a; match a with | ⟨0, _⟩ => rfl | ⟨1, _⟩ => rfl
/-- … the input gate's at 0 … -/
theorem ix7_1_eq (p : Fin 2000) (j : Fin 128) : Value.ix7_1 (ix2 p j) = ix2 p (col 0 (by norm_num) j) := by
  funext a; match a with | ⟨0, _⟩ => rfl | ⟨1, _⟩ => rfl
/-- … the update's at 256 … -/
theorem ix7_2_eq (p : Fin 2000) (j : Fin 128) : Value.ix7_2 (ix2 p j) = ix2 p (col 256 (by norm_num) j) := by
  funext a; match a with | ⟨0, _⟩ => rfl | ⟨1, _⟩ => rfl
/-- … the forget gate's at 384; -/
theorem ix7_3_eq (p : Fin 2000) (j : Fin 128) : Value.ix7_3 (ix2 p j) = ix2 p (col 384 (by norm_num) j) := by
  funext a; match a with | ⟨0, _⟩ => rfl | ⟨1, _⟩ => rfl
/-- and the children's memory is read at `(p, j)` itself. -/
theorem ix7_4_eq (p : Fin 2000) (j : Fin 128) : Value.ix7_4 (ix2 p j) = ix2 p j := by
  funext a; match a with | ⟨0, _⟩ => rfl | ⟨1, _⟩ => rfl

/-- The same for the memory block: input gate at 0, update at 256, forget gate at 384, the children's memory at `(p, j)`. -/
theorem ix8_0_eq (p : Fin 2000) (j : Fin 128) : Value.ix8_0 (ix2 p j) = ix2 p (col 0 (by norm_num) j) := by
  funext a; match a with | ⟨0, _⟩ => rfl | ⟨1, _⟩ => rfl
theorem ix8_1_eq (p : Fin 2000) (j : Fin 128) : Value.ix8_1 (ix2 p j) = ix2 p (col 256 (by norm_num) j) := by
  funext a; match a with | ⟨0, _⟩ => rfl | ⟨1, _⟩ => rfl
theorem ix8_2_eq (p : Fin 2000) (j : Fin 128) : Value.ix8_2 (ix2 p j) = ix2 p (col 384 (by norm_num) j) := by
  funext a; match a with | ⟨0, _⟩ => rfl | ⟨1, _⟩ => rfl
theorem ix8_3_eq (p : Fin 2000) (j : Fin 128) : Value.ix8_3 (ix2 p j) = ix2 p j := by
  funext a; match a with | ⟨0, _⟩ => rfl | ⟨1, _⟩ => rfl

/-- THE MEMORY BLOCK at `(p, j)` is the cell's new memory at array entry `(r, j)`. -/
theorem E8_block (p : Fin 2000) (j : Fin 128) (r : Fin 200000)
    (h0 : ∀ k : Fin 256, P0 (ix2 p k) = x (ix2 r k))
    (h1 : ∀ (k : Fin 256) (q : Fin 512), P1 (ix2 k q) = W (ix2 k q))
    (h2 : ∀ q : Fin 512, P2 (ix2 (0 : Fin 1) q) = bW (ix1 q))
    (h3 : ∀ k : Fin 128, P3 (ix2 p k) = hin (ix2 r k))
    (h4 : ∀ (k : Fin 128) (q : Fin 512), P4 (ix2 k q) = U (ix2 k q))
    (h5 : ∀ q : Fin 512, P5 (ix2 (0 : Fin 1) q) = bU (ix1 q))
    (h6 : P6 (ix2 p j) = cin (ix2 r j)) :
    Value.E8 P0 P1 P2 P3 P4 P5 P6 (ix2 p j) = newCArr x hin cin W bW U bU (ix2 r j) := by
  have hpre := preact_block x hin W bW U bU P0 P1 P2 P3 P4 P5 p r h0 h1 h2 h3 h4 h5
  show FloatOps.addf (FloatOps.mulf (FloatOps.logistic (k0_pay1 P0 P1 P2 P3 P4 P5 (Value.ix8_0 (ix2 p j))))
        (FloatOps.tanh (k0_pay1 P0 P1 P2 P3 P4 P5 (Value.ix8_1 (ix2 p j)))))
      (FloatOps.mulf (FloatOps.logistic (k0_pay1 P0 P1 P2 P3 P4 P5 (Value.ix8_2 (ix2 p j)))) (P6 (Value.ix8_3 (ix2 p j))))
    = newCArr x hin cin W bW U bU (ix2 r j)
  rw [ix8_0_eq, ix8_1_eq, ix8_2_eq, ix8_3_eq, hpre, hpre, hpre, h6, newCArr_ix2]
  rfl

/-- THE HIDDEN-STATE BLOCK at `(p, j)` is the cell's new hidden state at array entry `(r, j)`. -/
theorem E7_block (p : Fin 2000) (j : Fin 128) (r : Fin 200000)
    (h0 : ∀ k : Fin 256, P0 (ix2 p k) = x (ix2 r k))
    (h1 : ∀ (k : Fin 256) (q : Fin 512), P1 (ix2 k q) = W (ix2 k q))
    (h2 : ∀ q : Fin 512, P2 (ix2 (0 : Fin 1) q) = bW (ix1 q))
    (h3 : ∀ k : Fin 128, P3 (ix2 p k) = hin (ix2 r k))
    (h4 : ∀ (k : Fin 128) (q : Fin 512), P4 (ix2 k q) = U (ix2 k q))
    (h5 : ∀ q : Fin 512, P5 (ix2 (0 : Fin 1) q) = bU (ix1 q))
    (h6 : P6 (ix2 p j) = cin (ix2 r j)) :
    Value.E7 P0 P1 P2 P3 P4 P5 P6 (ix2 p j) = newHArr x hin cin W bW U bU (ix2 r j) := by
  have hpre := preact_block x hin W bW U bU P0 P1 P2 P3 P4 P5 p r h0 h1 h2 h3 h4 h5
  show FloatOps.mulf (FloatOps.logistic (k0_pay1 P0 P1 P2 P3 P4 P5 (Value.ix7_0 (ix2 p j))))
      (FloatOps.tanh (FloatOps.addf (FloatOps.mulf (FloatOps.logistic (k0_pay1 P0 P1 P2 P3 P4 P5 (Value.ix7_1 (ix2 p j))))
          (FloatOps.tanh (k0_pay1 P0 P1 P2 P3 P4 P5 (Value.ix7_2 (ix2 p j)))))
        (FloatOps.mulf (FloatOps.logistic (k0_pay1 P0 P1 P2 P3 P4 P5 (Value.ix7_3 (ix2 p j)))) (P6 (Value.ix7_4 (ix2 p j))))))
    = newHArr x hin cin W bW U bU (ix2 r j)
  rw [ix7_0_eq, ix7_1_eq, ix7_2_eq, ix7_3_eq, ix7_4_eq, hpre, hpre, hpre, hpre, h6, newHArr_ix2]
  rfl

end

end Cert.KernelIdeal.BlockCell

end
-- ==== Proof.Arrays.lean ====
/-
  The kernel's two result arrays after its run are the cell's new hidden state and new memory, as whole arrays.

  The grid has 100 points; point `t` works on the block of 2000 consecutive nodes that starts at node `2000·t`: it stages
  those rows of `x`, of the children's hidden sums and of the children's memory sums, the two weight matrices and the two
  `1×512` bias rows whole, and writes back those 2000 rows of each result. So
    * a loaded block's entry `(p, k)` is its array's entry `(2000·t + p, k)` (the whole-array windows: `(k, q)` itself);
    * a bias row's entry `(0, q)` is the bias vector's entry `q`, the row being the vector recast as `1×512` before the call;
    * what point `t` writes back is rows `2000·t … 2000·t + 1999` of the cell's arrays (the block lemmas);
    * every node `r` lies in the block of the point `r / 2000`, so the blocks cover each result array,
  and each result array after the run is the cell's array. The children's sums enter as the arrays the region finds; how
  they were formed before the call is not opened here.
-/
import proofs.«145560_j25254407701045_1_alg».proof.Proof.Gen.KernelIdeal.Value
import proofs.«145560_j25254407701045_1_alg».proof.Proof.BlockCell
import Idealize.ShloMosaic.Lib.Pipeline.Value
import Idealize.ShloMosaic.Lib.ValueLayout
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Cert.TreeCell
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- The row-blocked windows (`x`, the children's sums, the two results) sit at block `(t, 0)` — all at the block row of the
    hidden-state result — and the whole-array windows (weights, bias rows) at block `(0, 0)`: decided over the 100 points. -/
theorem idx_facts : ∀ t : Fin cfg0.N,
      win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_8.index t (0 : Fin 2) = win0_7.index t (0 : Fin 2) ∧ win0_8.index t (1 : Fin 2) = 0
    ∧ win0_7.index t (1 : Fin 2) = 0 :=
  (by decide +kernel : ∀ t : Fin grid0.N, _)

/-- The block row stays below 100. -/
theorem idx7_le : ∀ t : Fin cfg0.N, win0_7.index t (0 : Fin 2) ≤ 99 :=
  (by decide +kernel : ∀ t : Fin grid0.N, _)

/-- Every block row below 100 is some point's, for either result. -/
theorem idx7_onto : ∀ b : Fin 100, ∃ t : Fin cfg0.N, win0_7.index t (0 : Fin 2) = b.val :=
  (by decide +kernel : ∀ b : Fin 100, ∃ t : Fin grid0.N, win0_7.index t (0 : Fin 2) = b.val)

/-- The node under block row `p` of point `t`: `2000·(block row) + p`. -/
def node (t : Fin cfg0.N) (p : Fin 2000) : Fin 200000 :=
  ⟨win0_7.index t (0 : Fin 2) * 2000 + p.val, by have := idx7_le t; have := p.isLt; omega⟩

/-! ## The bias rows as the region finds them -/

/-- The first bias row is the bias vector `bW` recast as `1×512`. -/
theorem V_bW (c : Dev nD) :
    (V m c main_v20 : S1x512.Idx → EReal) = shapeCast S1x512 (m ((c : Thread nD τ).loc main_arg6)) shapeCasts_S512_S1x512 := by
  dsimp only [Gen.V, Gen.hostOps0]; after_results; rfl

/-- The second bias row is the bias vector `bU` recast as `1×512`. -/
theorem V_bU (c : Dev nD) :
    (V m c main_v21 : S1x512.Idx → EReal) = shapeCast S1x512 (m ((c : Thread nD τ).loc main_arg8)) shapeCasts_S512_S1x512 := by
  dsimp only [Gen.V, Gen.hostOps0]; after_results; rfl

/-! ## Each loaded block read against its array -/

/-- `x`'s block: entry `(p, k)` is `x` at the node under `p`. -/
theorem read_x (c : Dev nD) (t : Fin cfg0.N) (p : Fin 2000) (k : Fin 256) :
    iblk m c 0 t (ix2 p k) = V m c main_arg0 (ix2 (node t p) k) := by
  obtain ⟨e0, e1, -⟩ := idx_facts t
  show V m c main_arg0 (((cfg0.win 0).blk t).view.emb (ix2 p k)) = V m c main_arg0 (ix2 (node t p) k)
  refine congrArg (V m c main_arg0) (funext fun a => Fin.ext ?_)
  match a with
  | ⟨0, _⟩ => show win0_0.index t (0 : Fin 2) * 2000 + 1 * p.val = win0_7.index t (0 : Fin 2) * 2000 + p.val; omega
  | ⟨1, _⟩ => show win0_0.index t (1 : Fin 2) * 256 + 1 * k.val = k.val; omega

/-- The children's hidden sums' block: entry `(p, k)` is the array at the node under `p`. -/
theorem read_hin (c : Dev nD) (t : Fin cfg0.N) (p : Fin 2000) (k : Fin 128) :
    iblk m c 1 t (ix2 p k) = V m c main_v9 (ix2 (node t p) k) := by
  obtain ⟨-, -, e0, e1, -⟩ := idx_facts t
  show V m c main_v9 (((cfg0.win 1).blk t).view.emb (ix2 p k)) = V m c main_v9 (ix2 (node t p) k)
  refine congrArg (V m c main_v9) (funext fun a => Fin.ext ?_)
  match a with
  | ⟨0, _⟩ => show win0_1.index t (0 : Fin 2) * 2000 + 1 * p.val = win0_7.index t (0 : Fin 2) * 2000 + p.val; omega
  | ⟨1, _⟩ => show win0_1.index t (1 : Fin 2) * 128 + 1 * k.val = k.val; omega

/-- The children's memory sums' block: entry `(p, j)` is the array at the node under `p`. -/
theorem read_cin (c : Dev nD) (t : Fin cfg0.N) (p : Fin 2000) (j : Fin 128) :
    iblk m c 2 t (ix2 p j) = V m c main_v19 (ix2 (node t p) j) := by
  obtain ⟨-, -, -, -, e0, e1, -⟩ := idx_facts t
  show V m c main_v19 (((cfg0.win 2).blk t).view.emb (ix2 p j)) = V m c main_v19 (ix2 (node t p) j)
  refine congrArg (V m c main_v19) (funext fun a => Fin.ext ?_)
  match a with
  | ⟨0, _⟩ => show win0_2.index t (0 : Fin 2) * 2000 + 1 * p.val = win0_7.index t (0 : Fin 2) * 2000 + p.val; omega
  | ⟨1, _⟩ => show win0_2.index t (1 : Fin 2) * 128 + 1 * j.val = j.val; omega

/-- `W` is staged whole. -/
theorem read_W (c : Dev nD) (t : Fin cfg0.N) (k : Fin 256) (q : Fin 512) :
    iblk m c 3 t (ix2 k q) = V m c main_arg5 (ix2 k q) := by
  obtain ⟨-, -, -, -, -, -, e0, e1, -⟩ := idx_facts t
  show V m c main_arg5 (((cfg0.win 3).blk t).view.emb (ix2 k q)) = V m c main_arg5 (ix2 k q)
  refine congrArg (V m c main_arg5) (funext fun a => Fin.ext ?_)
  match a with
  | ⟨0, _⟩ => show win0_3.index t (0 : Fin 2) * 256 + 1 * k.val = k.val; omega
  | ⟨1, _⟩ => show win0_3.index t (1 : Fin 2) * 512 + 1 * q.val = q.val; omega

/-- The first bias row is staged whole, and its entry `(0, q)` is `bW` at `q`. -/
theorem read_bW (c : Dev nD) (t : Fin cfg0.N) (q : Fin 512) :
    iblk m c 4 t (ix2 (0 : Fin 1) q) = m ((c : Thread nD τ).loc main_arg6) (ix1 q) := by
  obtain ⟨-, -, -, -, -, -, -, -, e0, e1, -⟩ := idx_facts t
  have e : ((cfg0.win 4).blk t).view.emb (ix2 (0 : Fin 1) q) = ix2 (0 : Fin 1) q := by
    funext a; apply Fin.ext
    match a with
    | ⟨0, _⟩ => show win0_4.index t (0 : Fin 2) * 1 + 1 * 0 = 0; omega
    | ⟨1, _⟩ => show win0_4.index t (1 : Fin 2) * 512 + 1 * q.val = q.val; omega
  show V m c main_v20 (((cfg0.win 4).blk t).view.emb (ix2 (0 : Fin 1) q)) = _
  rw [e, V_bW]
  exact shapeCast_a_1a_apply _ _ 0 q

/-- `U` is staged whole. -/
theorem read_U (c : Dev nD) (t : Fin cfg0.N) (k : Fin 128) (q : Fin 512) :
    iblk m c 5 t (ix2 k q) = V m c main_arg7 (ix2 k q) := by
  obtain ⟨-, -, -, -, -, -, -, -, -, -, e0, e1, -⟩ := idx_facts t
  show V m c main_arg7 (((cfg0.win 5).blk t).view.emb (ix2 k q)) = V m c main_arg7 (ix2 k q)
  refine congrArg (V m c main_arg7) (funext fun a => Fin.ext ?_)
  match a with
  | ⟨0, _⟩ => show win0_5.index t (0 : Fin 2) * 128 + 1 * k.val = k.val; omega
  | ⟨1, _⟩ => show win0_5.index t (1 : Fin 2) * 512 + 1 * q.val = q.val; omega

/-- The second bias row is staged whole, and its entry `(0, q)` is `bU` at `q`. -/
theorem read_bU (c : Dev nD) (t : Fin cfg0.N) (q : Fin 512) :
    iblk m c 6 t (ix2 (0 : Fin 1) q) = m ((c : Thread nD τ).loc main_arg8) (ix1 q) := by
  obtain ⟨-, -, -, -, -, -, -, -, -, -, -, -, e0, e1, -⟩ := idx_facts t
  have e : ((cfg0.win 6).blk t).view.emb (ix2 (0 : Fin 1) q) = ix2 (0 : Fin 1) q := by
    funext a; apply Fin.ext
    match a with
    | ⟨0, _⟩ => show win0_6.index t (0 : Fin 2) * 1 + 1 * 0 = 0; omega
    | ⟨1, _⟩ => show win0_6.index t (1 : Fin 2) * 512 + 1 * q.val = q.val; omega
  show V m c main_v21 (((cfg0.win 6).blk t).view.emb (ix2 (0 : Fin 1) q)) = _
  rw [e, V_bU]
  exact shapeCast_a_1a_apply _ _ 0 q

/-- The hidden-state result's block entry `(p, j)` sits at array entry `(node, j)`. -/
theorem emb_h (t : Fin cfg0.N) (p : Fin 2000) (j : Fin 128) :
    ((cfg0.win 7).blk t).view.emb (ix2 p j) = ix2 (node t p) j := by
  have e1 := (idx_facts t).2.2.2.2.2.2.2.2.2.2.2.2.2.2.2.2
  funext a; apply Fin.ext
  match a with
  | ⟨0, _⟩ => show win0_7.index t (0 : Fin 2) * 2000 + 1 * p.val = win0_7.index t (0 : Fin 2) * 2000 + p.val; omega
  | ⟨1, _⟩ => show win0_7.index t (1 : Fin 2) * 128 + 1 * j.val = j.val; omega

/-- The memory result's block entry `(p, j)` sits at array entry `(node, j)`. -/
theorem emb_c (t : Fin cfg0.N) (p : Fin 2000) (j : Fin 128) :
    ((cfg0.win 8).blk t).view.emb (ix2 p j) = ix2 (node t p) j := by
  obtain ⟨-, -, -, -, -, -, -, -, -, -, -, -, -, -, e0, e1, -⟩ := idx_facts t
  funext a; apply Fin.ext
  match a with
  | ⟨0, _⟩ => show win0_8.index t (0 : Fin 2) * 2000 + 1 * p.val = win0_7.index t (0 : Fin 2) * 2000 + p.val; omega
  | ⟨1, _⟩ => show win0_8.index t (1 : Fin 2) * 128 + 1 * j.val = j.val; omega

/-! ## What each point writes back -/

/-- The cell's new hidden state of the arrays the region finds. -/
abbrev Hnew (c : Dev nD) : S200000x128.Idx → EReal :=
  newHArr (V m c main_arg0) (V m c main_v9) (V m c main_v19) (V m c main_arg5) (m ((c : Thread nD τ).loc main_arg6))
    (V m c main_arg7) (m ((c : Thread nD τ).loc main_arg8))

/-- The cell's new memory of the arrays the region finds. -/
abbrev Cnew (c : Dev nD) : S200000x128.Idx → EReal :=
  newCArr (V m c main_arg0) (V m c main_v9) (V m c main_v19) (V m c main_arg5) (m ((c : Thread nD τ).loc main_arg6))
    (V m c main_arg7) (m ((c : Thread nD τ).loc main_arg8))

/-- WHAT POINT `t` WRITES BACK to the hidden-state result is block `t` of the cell's new hidden state. -/
theorem flushed_h (c : Dev nD) (t : Fin cfg0.N) :
    (dats m 0 c).flushed 7 t = ((cfg0.win 7).blk t).view.read (Elt Ideal) (Hnew m c) := by
  rw [Value.flushed7]
  unfold out0_7
  simp only [View.ld_unit_zero (S := S2000x256) hz, View.ld_unit_zero (S := S256x512) hz, View.ld_unit_zero (S := S1x512) hz,
    View.ld_unit_zero (S := S2000x128) hz, View.ld_unit_zero (S := S128x512) hz]
  funext y
  obtain ⟨p, j, rfl⟩ : ∃ (p : Fin 2000) (j : Fin 128), y = ix2 p j := ⟨y 0, y 1, eq_ix2 y⟩
  show View.canon ([⟨r0_3, k0_pay3 (iblk m c 0 t) (iblk m c 3 t) (iblk m c 4 t) (iblk m c 1 t) (iblk m c 5 t) (iblk m c 6 t) (iblk m c 2 t)⟩] : List (View.Piece (Elt Ideal) S2000x128 .f32)) (ix2 p j)
    = Hnew m c (((cfg0.win 7).blk t).view.emb (ix2 p j))
  rw [emb_h]
  refine (Value.canon7_eq (iblk m c 0 t) (iblk m c 3 t) (iblk m c 4 t) (iblk m c 1 t) (iblk m c 5 t) (iblk m c 6 t) (iblk m c 2 t) (ix2 p j)).trans ?_
  exact BlockCell.E7_block (V m c main_arg0) (V m c main_v9) (V m c main_v19) (V m c main_arg5) (m ((c : Thread nD τ).loc main_arg6))
    (V m c main_arg7) (m ((c : Thread nD τ).loc main_arg8))
    (iblk m c 0 t) (iblk m c 3 t) (iblk m c 4 t) (iblk m c 1 t) (iblk m c 5 t) (iblk m c 6 t) (iblk m c 2 t) p j (node t p)
    (read_x m c t p) (read_W m c t) (read_bW m c t) (read_hin m c t p) (read_U m c t) (read_bU m c t) (read_cin m c t p j)

/-- WHAT POINT `t` WRITES BACK to the memory result is block `t` of the cell's new memory. -/
theorem flushed_c (c : Dev nD) (t : Fin cfg0.N) :
    (dats m 0 c).flushed 8 t = ((cfg0.win 8).blk t).view.read (Elt Ideal) (Cnew m c) := by
  rw [Value.flushed8]
  unfold out0_8
  simp only [View.ld_unit_zero (S := S2000x256) hz, View.ld_unit_zero (S := S256x512) hz, View.ld_unit_zero (S := S1x512) hz,
    View.ld_unit_zero (S := S2000x128) hz, View.ld_unit_zero (S := S128x512) hz]
  funext y
  obtain ⟨p, j, rfl⟩ : ∃ (p : Fin 2000) (j : Fin 128), y = ix2 p j := ⟨y 0, y 1, eq_ix2 y⟩
  show View.canon ([⟨r0_3, k0_pay2 (iblk m c 0 t) (iblk m c 3 t) (iblk m c 4 t) (iblk m c 1 t) (iblk m c 5 t) (iblk m c 6 t) (iblk m c 2 t)⟩] : List (View.Piece (Elt Ideal) S2000x128 .f32)) (ix2 p j)
    = Cnew m c (((cfg0.win 8).blk t).view.emb (ix2 p j))
  rw [emb_c]
  refine (Value.canon8_eq (iblk m c 0 t) (iblk m c 3 t) (iblk m c 4 t) (iblk m c 1 t) (iblk m c 5 t) (iblk m c 6 t) (iblk m c 2 t) (ix2 p j)).trans ?_
  exact BlockCell.E8_block (V m c main_arg0) (V m c main_v9) (V m c main_v19) (V m c main_arg5) (m ((c : Thread nD τ).loc main_arg6))
    (V m c main_arg7) (m ((c : Thread nD τ).loc main_arg8))
    (iblk m c 0 t) (iblk m c 3 t) (iblk m c 4 t) (iblk m c 1 t) (iblk m c 5 t) (iblk m c 6 t) (iblk m c 2 t) p j (node t p)
    (read_x m c t p) (read_W m c t) (read_bW m c t) (read_hin m c t p) (read_U m c t) (read_bU m c t) (read_cin m c t p j)

/-! ## The blocks cover the arrays -/

/-- An index of the hidden-state array is in point `t`'s block iff each coordinate is in the block's range on its axis. -/
theorem mem_blk_h (t : Fin cfg0.N) (i : S200000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v22_0).slice (win0_7.rect t)).set ↔ _
  rw [View.set_slice_whole, Rect.mem_set_unit]
  exact Iff.rfl

/-- The same for the memory array. -/
theorem mem_blk_c (t : Fin cfg0.N) (i : S200000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v22_1).slice (win0_8.rect t)).set ↔ _
  rw [View.set_slice_whole, Rect.mem_set_unit]
  exact Iff.rfl

/-- EVERY NODE'S ROW IS COVERED: node `r` lies in the block of the point whose block row is `r / 2000`. -/
theorem cover_h (i : S200000x128.Idx) :
    ∃ t : Fin cfg0.N, (cfg0.win 7).flush t = true ∧ i ∈ ((cfg0.win 7).blk t).view.set := by
  have hi0 : (i 0).val < 200000 := (i 0).isLt
  have hi1 : (i 1).val < 128 := (i 1).isLt
  obtain ⟨t, ht⟩ := idx7_onto ⟨(i 0).val / 2000, by omega⟩
  have q0 : win0_7.index t (0 : Fin 2) = (i 0).val / 2000 := ht
  have q1 : win0_7.index t (1 : Fin 2) = 0 := (idx_facts t).2.2.2.2.2.2.2.2.2.2.2.2.2.2.2.2
  refine ⟨t, flush0_7 t, ?_⟩
  rw [mem_blk_h]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- The same for the memory array. -/
theorem cover_c (i : S200000x128.Idx) :
    ∃ t : Fin cfg0.N, (cfg0.win 8).flush t = true ∧ i ∈ ((cfg0.win 8).blk t).view.set := by
  have hi0 : (i 0).val < 200000 := (i 0).isLt
  have hi1 : (i 1).val < 128 := (i 1).isLt
  obtain ⟨t, ht⟩ := idx7_onto ⟨(i 0).val / 2000, by omega⟩
  obtain ⟨-, -, -, -, -, -, -, -, -, -, -, -, -, -, e0, e1, -⟩ := idx_facts t
  have q0 : win0_7.index t (0 : Fin 2) = (i 0).val / 2000 := ht
  refine ⟨t, flush0_8 t, ?_⟩
  rw [mem_blk_c]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-! ## The arrays after the run, and the run -/

/-- THE HIDDEN-STATE ARRAY after the run is the cell's new hidden state. -/
theorem final_h (c : Dev nD) : (dats m 0 c).arrAt 7 cfg0.N = Hnew m c :=
  (dats m 0 c).arrAt_eq_of_cover 7 (Hnew m c) (fun t _ => flushed_h m c t) cover_h

/-- THE MEMORY ARRAY after the run is the cell's new memory. -/
theorem final_c (c : Dev nD) : (dats m 0 c).arrAt 8 cfg0.N = Cnew m c :=
  (dats m 0 c).arrAt_eq_of_cover 8 (Cnew m c) (fun t _ => flushed_c m c t) cover_c

/-- THE KERNEL'S RUN: every execution ends with the two results at the cell's arrays and the arguments unchanged. -/
theorem run : θ_run defs (onTc (τ := τ) (main (F := Ideal))) ⟨m, fun _ => 0, ρ⟩ fun r => ∀ c : Dev nD,
      r.2.mem ((c : Thread nD τ).loc main_v22_0) = Hnew m c
      ∧ r.2.mem ((c : Thread nD τ).loc main_v22_1) = Cnew m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final_h m c), (h c).2.1.trans (final_c m c), (h c).2.2⟩)
    (Value.run_blocks m ρ)

end Cert.KernelIdeal.Arrays

end
-- ==== Proof.RefCell.lean ====
/-
  The reference computes the cell.

  Read one operation at a time, the reference forms the same pre-activation — `x` times `W` plus the bias `bW` spread over
  the rows, plus the children's hidden sums times `U` plus `bU`, each product the plain sum over the contracted index —,
  cuts it into the four blocks of 128 columns at 0, 128, 256, 384, and applies to them the logistic function WRITTEN OUT
  (`1.0 / (1.0 + exp (-t))`), `tanh`, and the same products and sum as the cell. The logistic function written out is the
  logistic function at every extended real, so the reference's two results are the cell's new hidden state and new memory
  of its arguments, the children's sums being the two scatter-sums the reference forms — kept whole here, never opened.
-/
import proofs.«145560_j25254407701045_1_alg».proof.Proof.Gen.ReferenceIdeal.Read
import proofs.«145560_j25254407701045_1_alg».proof.Proof.Cell

noncomputable section

namespace Cert.ReferenceIdeal.RefCell

open Cert.ReferenceIdeal Cert.ReferenceIdeal.Gen Cert.ReferenceIdeal.Read Idealize.ShloMosaic Idealize.ShloMosaic.ValueIdx
open Cert.TreeCell

/-! ## Where each operation reads its operands -/

theorem lidx_x (r : Fin 200000) (q : Fin 512) (k : Fin 256) : lidx_main_v0 (ix2 r q) k = ix2 r k := by
  funext a; match a with | ⟨0, _⟩ => rfl | ⟨1, _⟩ => rfl
theorem ridx_x (r : Fin 200000) (q : Fin 512) (k : Fin 256) : ridx_main_v0 (ix2 r q) k = ix2 k q := by
  funext a; match a with | ⟨0, _⟩ => rfl | ⟨1, _⟩ => rfl
theorem lidx_h (r : Fin 200000) (q : Fin 512) (k : Fin 128) : lidx_main_v24 (ix2 r q) k = ix2 r k := by
  funext a; match a with | ⟨0, _⟩ => rfl | ⟨1, _⟩ => rfl
theorem ridx_h (r : Fin 200000) (q : Fin 512) (k : Fin 128) : ridx_main_v24 (ix2 r q) k = ix2 k q := by
  funext a; match a with | ⟨0, _⟩ => rfl | ⟨1, _⟩ => rfl
/-- A bias spread to one row and then over the rows is read, at `(r, q)`, at `q`. -/
theorem idx_bW (r : Fin 200000) (q : Fin 512) : idx_main_v1 (idx_main_v2 (ix2 r q)) = ix1 q := by
  funext a; match a with | ⟨0, _⟩ => rfl
theorem idx_bU (r : Fin 200000) (q : Fin 512) : idx_main_v25 (idx_main_v26 (ix2 r q)) = ix1 q := by
  funext a; match a with | ⟨0, _⟩ => rfl
/-- The four column blocks: at 0 … -/
theorem idx_i (r : Fin 200000) (j : Fin 128) : idx_main_v29 (ix2 r j) = ix2 r (col 0 (by norm_num) j) := by
  funext a; match a with | ⟨0, _⟩ => rfl | ⟨1, _⟩ => rfl
/-- … at 128 … -/
theorem idx_o (r : Fin 200000) (j : Fin 128) : idx_main_v30 (ix2 r j) = ix2 r (col 128 (by norm_num) j) := by
  funext a; match a with | ⟨0, _⟩ => rfl | ⟨1, _⟩ => exact Fin.ext (Nat.add_comm 128 j.val)
/-- … at 256 … -/
theorem idx_u (r : Fin 200000) (j : Fin 128) : idx_main_v31 (ix2 r j) = ix2 r (col 256 (by norm_num) j) := by
  funext a; match a with | ⟨0, _⟩ => rfl | ⟨1, _⟩ => exact Fin.ext (Nat.add_comm 256 j.val)
/-- … and at 384. -/
theorem idx_f (r : Fin 200000) (j : Fin 128) : idx_main_v32 (ix2 r j) = ix2 r (col 384 (by norm_num) j) := by
  funext a; match a with | ⟨0, _⟩ => rfl | ⟨1, _⟩ => exact Fin.ext (Nat.add_comm 384 j.val)

section
variable (x0 : (⟨S200000x256, .f32⟩ : BufTy).Contents (Elt Ideal)) (x1 x2 : (⟨S200000x128, .f32⟩ : BufTy).Contents (Elt Ideal))
  (x3 x4 : (⟨S500000, .i32⟩ : BufTy).Contents (Elt Ideal)) (x5 : (⟨S256x512, .f32⟩ : BufTy).Contents (Elt Ideal))
  (x6 : (⟨S512, .f32⟩ : BufTy).Contents (Elt Ideal)) (x7 : (⟨S128x512, .f32⟩ : BufTy).Contents (Elt Ideal))
  (x8 : (⟨S512, .f32⟩ : BufTy).Contents (Elt Ideal))

/-- The children's hidden sums as the reference forms them: one whole term of `h` and the two edge lists. -/
abbrev hinRef : (⟨S200000x128, .f32⟩ : BufTy).Contents (Elt Ideal) := val_main_v13 (F := Ideal) x1 x3 x4
/-- The children's memory sums as the reference forms them. -/
abbrev cinRef : (⟨S200000x128, .f32⟩ : BufTy).Contents (Elt Ideal) := val_main_v23 (F := Ideal) x2 x3 x4

/-- THE REFERENCE'S PRE-ACTIVATION at `(r, q)` is the cell's. -/
theorem preact_ref (r : Fin 200000) (q : Fin 512) :
    val_main_v28 (F := Ideal) x0 x1 x3 x4 x5 x6 x7 x8 (ix2 r q) = preact x0 (hinRef x1 x3 x4) x5 x6 x7 x8 r q := by
  rw [val_main_v28_apply, val_main_v3_apply, val_main_v27_apply, val_main_v0_apply, val_main_v2_apply, val_main_v1_apply,
    val_main_v24_apply, val_main_v26_apply, val_main_v25_apply, idx_bW, idx_bU]
  simp only [lidx_x, ridx_x, lidx_h, ridx_h]
  rfl

/-- The input gate: the logistic function written out, of the block of columns at 0. -/
theorem gate_i (r : Fin 200000) (j : Fin 128) :
    val_main_v38 (F := Ideal) x0 x1 x3 x4 x5 x6 x7 x8 (ix2 r j)
      = Ideal.logistic (preact x0 (hinRef x1 x3 x4) x5 x6 x7 x8 r (col 0 (by norm_num) j)) := by
  rw [val_main_v38_apply, val_main_v37_apply, val_main_cst_5_apply, val_main_v36_apply, val_main_v35_apply, val_main_cst_4_apply,
    val_main_v34_apply, val_main_v33_apply, val_main_v29_apply, idx_i, preact_ref]
  exact logistic_spelt _

/-- The output gate: of the block at 128. -/
theorem gate_o (r : Fin 200000) (j : Fin 128) :
    val_main_v44 (F := Ideal) x0 x1 x3 x4 x5 x6 x7 x8 (ix2 r j)
      = Ideal.logistic (preact x0 (hinRef x1 x3 x4) x5 x6 x7 x8 r (col 128 (by norm_num) j)) := by
  rw [val_main_v44_apply, val_main_v43_apply, val_main_cst_7_apply, val_main_v42_apply, val_main_v41_apply, val_main_cst_6_apply,
    val_main_v40_apply, val_main_v39_apply, val_main_v30_apply, idx_o, preact_ref]
  exact logistic_spelt _

/-- The update: `tanh` of the block at 256. -/
theorem upd_u (r : Fin 200000) (j : Fin 128) :
    val_main_v45 (F := Ideal) x0 x1 x3 x4 x5 x6 x7 x8 (ix2 r j)
      = Ideal.tanh (preact x0 (hinRef x1 x3 x4) x5 x6 x7 x8 r (col 256 (by norm_num) j)) := by
  rw [val_main_v45_apply, val_main_v31_apply, idx_u, preact_ref]
  rfl

/-- The forget gate: of the block at 384. -/
theorem gate_f (r : Fin 200000) (j : Fin 128) :
    val_main_v51 (F := Ideal) x0 x1 x3 x4 x5 x6 x7 x8 (ix2 r j)
      = Ideal.logistic (preact x0 (hinRef x1 x3 x4) x5 x6 x7 x8 r (col 384 (by norm_num) j)) := by
  rw [val_main_v51_apply, val_main_v50_apply, val_main_cst_9_apply, val_main_v49_apply, val_main_v48_apply, val_main_cst_8_apply,
    val_main_v47_apply, val_main_v46_apply, val_main_v32_apply, idx_f, preact_ref]
  exact logistic_spelt _

/-- THE REFERENCE'S SECOND RESULT is the cell's new memory. -/
theorem ref_c :
    val_main_v54 (F := Ideal) x0 x1 x2 x3 x4 x5 x6 x7 x8 = newCArr x0 (hinRef x1 x3 x4) (cinRef x2 x3 x4) x5 x6 x7 x8 := by
  funext i
  obtain ⟨r, j, rfl⟩ : ∃ (r : Fin 200000) (j : Fin 128), i = ix2 r j := ⟨i 0, i 1, eq_ix2 i⟩
  rw [val_main_v54_apply, val_main_v52_apply, val_main_v53_apply, gate_i, upd_u, gate_f, newCArr_ix2]
  rfl

/-- THE REFERENCE'S FIRST RESULT is the cell's new hidden state. -/
theorem ref_h :
    val_main_v56 (F := Ideal) x0 x1 x2 x3 x4 x5 x6 x7 x8 = newHArr x0 (hinRef x1 x3 x4) (cinRef x2 x3 x4) x5 x6 x7 x8 := by
  funext i
  obtain ⟨r, j, rfl⟩ : ∃ (r : Fin 200000) (j : Fin 128), i = ix2 r j := ⟨i 0, i 1, eq_ix2 i⟩
  rw [val_main_v56_apply, val_main_v55_apply, gate_o, congrFun (ref_c x0 x1 x2 x3 x4 x5 x6 x7 x8) (ix2 r j), newCArr_ix2,
    newHArr_ix2]
  rfl

end

end Cert.ReferenceIdeal.RefCell

end
-- ==== Proof.Bridge.lean ====
/-
  The two idealized programs end with equal results.

  The kernel's run leaves the cell's new hidden state and new memory of the arrays its region finds; the reference's run
  leaves the cell's arrays of its arguments and of the two scatter-sums it forms. The programs are run from memories that
  agree on the arguments, so what is left to compare is the children's sums: before its call the kernel's program forms
  them by the SAME operations as the reference — the edge sources normalised, the rows of `h` (of `c`) gathered at them and
  added into a zero array at the edge targets — of the same arguments. They are one term on both sides, compared whole and
  never opened.
-/
import proofs.«145560_j25254407701045_1_alg».proof.Defs
import proofs.«145560_j25254407701045_1_alg».proof.Proof.Arrays
import proofs.«145560_j25254407701045_1_alg».proof.Proof.RefCell
import proofs.«145560_j25254407701045_1_alg».proof.Proof.Gen.Pre_finite_inputs
import Idealize.ShloMosaic.Lib.StableHlo.Run

noncomputable section

namespace Cert.Proof.Bridge

open Idealize.ShloMosaic Idealize.ShloMosaic.TcCoe Idealize.SL.Sem Cert.TreeCell

section
variable (m : (ℓ : Loc Cert.KernelIdeal.nD Cert.KernelIdeal.τ Cert.KernelIdeal.sig) → Buf (Elt Ideal) ℓ)

/-- THE CHILDREN'S HIDDEN SUMS the kernel's region finds are the reference's scatter-sum of the same `h` and edge lists. -/
theorem hin_eq (c : Dev Cert.KernelIdeal.nD) :
    (Cert.KernelIdeal.Gen.V m c Cert.KernelIdeal.main_v9 : Cert.KernelIdeal.S200000x128.Idx → EReal)
      = Cert.ReferenceIdeal.RefCell.hinRef
          (m ((c : Thread Cert.KernelIdeal.nD Cert.KernelIdeal.τ).loc Cert.KernelIdeal.main_arg1))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  dsimp only [Cert.KernelIdeal.Gen.V, Cert.KernelIdeal.Gen.hostOps0]; after_results_simp <;> rfl

/-- THE CHILDREN'S MEMORY SUMS the kernel's region finds are the reference's scatter-sum of the same `c` and edge lists. -/
theorem cin_eq (c : Dev Cert.KernelIdeal.nD) :
    (Cert.KernelIdeal.Gen.V m c Cert.KernelIdeal.main_v19 : Cert.KernelIdeal.S200000x128.Idx → EReal)
      = Cert.ReferenceIdeal.RefCell.cinRef
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  dsimp only [Cert.KernelIdeal.Gen.V, Cert.KernelIdeal.Gen.hostOps0]; after_results_simp <;> rfl

/-- The kernel's new hidden state, over the launch memory alone: the cell of the arguments and of the reference's sums. -/
theorem Hnew_eq (c : Dev Cert.KernelIdeal.nD) :
    Cert.KernelIdeal.Arrays.Hnew m c
      = newHArr (m ((c : Thread Cert.KernelIdeal.nD Cert.KernelIdeal.τ).loc Cert.KernelIdeal.main_arg0))
          (Cert.ReferenceIdeal.RefCell.hinRef
            (m ((c : Thread Cert.KernelIdeal.nD Cert.KernelIdeal.τ).loc Cert.KernelIdeal.main_arg1))
            (m ((c : Thread Cert.KernelIdeal.nD Cert.KernelIdeal.τ).loc Cert.KernelIdeal.main_arg3))
            (m ((c : Thread Cert.KernelIdeal.nD Cert.KernelIdeal.τ).loc Cert.KernelIdeal.main_arg4)))
          (Cert.ReferenceIdeal.RefCell.cinRef
            (m ((c : Thread Cert.KernelIdeal.nD Cert.KernelIdeal.τ).loc Cert.KernelIdeal.main_arg2))
            (m ((c : Thread Cert.KernelIdeal.nD Cert.KernelIdeal.τ).loc Cert.KernelIdeal.main_arg3))
            (m ((c : Thread Cert.KernelIdeal.nD Cert.KernelIdeal.τ).loc Cert.KernelIdeal.main_arg4)))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8)) := by
  show newHArr _ _ _ _ _ _ _ = _
  rw [Cert.KernelIdeal.Gen.V_main_arg0, Cert.KernelIdeal.Gen.V_main_arg5, Cert.KernelIdeal.Gen.V_main_arg7, hin_eq, cin_eq]

/-- The kernel's new memory, over the launch memory alone. -/
theorem Cnew_eq (c : Dev Cert.KernelIdeal.nD) :
    Cert.KernelIdeal.Arrays.Cnew m c
      = newCArr (m ((c : Thread Cert.KernelIdeal.nD Cert.KernelIdeal.τ).loc Cert.KernelIdeal.main_arg0))
          (Cert.ReferenceIdeal.RefCell.hinRef
            (m ((c : Thread Cert.KernelIdeal.nD Cert.KernelIdeal.τ).loc Cert.KernelIdeal.main_arg1))
            (m ((c : Thread Cert.KernelIdeal.nD Cert.KernelIdeal.τ).loc Cert.KernelIdeal.main_arg3))
            (m ((c : Thread Cert.KernelIdeal.nD Cert.KernelIdeal.τ).loc Cert.KernelIdeal.main_arg4)))
          (Cert.ReferenceIdeal.RefCell.cinRef
            (m ((c : Thread Cert.KernelIdeal.nD Cert.KernelIdeal.τ).loc Cert.KernelIdeal.main_arg2))
            (m ((c : Thread Cert.KernelIdeal.nD Cert.KernelIdeal.τ).loc Cert.KernelIdeal.main_arg3))
            (m ((c : Thread Cert.KernelIdeal.nD Cert.KernelIdeal.τ).loc Cert.KernelIdeal.main_arg4)))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8)) := by
  show newCArr _ _ _ _ _ _ _ = _
  rw [Cert.KernelIdeal.Gen.V_main_arg0, Cert.KernelIdeal.Gen.V_main_arg5, Cert.KernelIdeal.Gen.V_main_arg7, hin_eq, cin_eq]

end

/-- THE TWO IDEALIZED PROGRAMS, run from memories agreeing on the arguments, end with equal results: both leave the cell's
    new hidden state and new memory of the arguments. -/
theorem algebraic : Cert.algebraic_KernelIdeal_ReferenceIdeal := by
  intro m ρ m' ρ' _ hagree
  refine ⟨fun c => Cert.KernelIdeal.Arrays.Hnew m c, fun c => Cert.KernelIdeal.Arrays.Cnew m c,
    Cert.KernelIdeal.Arrays.run m ρ, ?_⟩
  refine (θ_run Cert.ReferenceIdeal.defs _ _).mono (fun r h c => ⟨?_, ?_, (h c).2.2⟩)
    (Cert.ReferenceIdeal.Value.run (F := Ideal) m' ρ')
  · obtain ⟨a0, a1, a2, a3, a4, a5, a6, a7, a8⟩ := hagree c
    rw [(h c).1, Cert.ReferenceIdeal.Read.val_main_v56_eq, Cert.ReferenceIdeal.RefCell.ref_h, a0, a1, a2, a3, a4, a5, a6, a7, a8]
    exact (Hnew_eq m c).symm
  · obtain ⟨a0, a1, a2, a3, a4, a5, a6, a7, a8⟩ := hagree c
    rw [(h c).2.1, Cert.ReferenceIdeal.Read.val_main_v54_eq, Cert.ReferenceIdeal.RefCell.ref_c, a0, a1, a2, a3, a4, a5, a6, a7, a8]
    exact (Cnew_eq m c).symm

end Cert.Proof.Bridge

end
-- ==== Proof.lean ====
/-
  One step of a child-sum tree-LSTM cell: the Pallas kernel against its jnp reference, on the extended reals.

  Both programs first sum, for every node, the hidden and the memory states of its children (the rows gathered at the edge
  sources, added into a zero array at the edge targets): `hin`, `cin`. Then, per node `r` and hidden unit `j`,

      a        = (x·W + bW) + (hin·U + bU)                          one row of 512 entries
      i, o, f  = σ of a's blocks of 128 columns at 0, 128, 384      u = tanh of the block at 256
      c'       = i·u + f·cin                                        h' = o·tanh(c')

  and the results are `h'` and `c'`. The kernel computes the second part block by block — 2000 nodes at each of 100 grid
  points, the weights and the two bias rows staged whole — with the logistic function `σ` as one operation and each product
  accumulated from zero; the reference computes it on whole arrays with `σ` written out, `1.0 / (1.0 + exp (-t))`. On the
  extended reals a product accumulated from zero is the plain sum over the contracted index, narrowing a factor to sixteen
  bits changes nothing, and `σ` written out IS `σ`, at `±∞` too. So both programs leave the same two arrays, entry by entry.
  The sums and products stand in the same grouping on both sides: no law of the extended reals rearranges them, and the
  finiteness of the inputs is never used.

  The modules. `Cell`: the cell as one function of the argument arrays, and `σ` written out. `Preact`, `BlockCell`: one
  block of the kernel body's two outputs is the cell's, entry by entry. `Arrays`: each loaded block against its array, the
  blocks cover the result arrays, the kernel's run. `RefCell`: the reference's two results are the cell's. `Bridge`: the
  children's sums of the two programs are one term, and the two runs side by side. Here: the three frame claims — each
  kernel's from its generated frame proof, the reference's from its generated run with the results dropped —, the
  idealization claim, which has no rewrite to justify, and the assembly.
-/
import proofs.«145560_j25254407701045_1_alg».proof.Defs
import proofs.«145560_j25254407701045_1_alg».proof.Proof.Gen.Kernel
import proofs.«145560_j25254407701045_1_alg».proof.Proof.Gen.Kernel.Frame
import proofs.«145560_j25254407701045_1_alg».proof.Proof.Gen.KernelIdeal
import proofs.«145560_j25254407701045_1_alg».proof.Proof.Gen.KernelIdeal.Frame
import proofs.«145560_j25254407701045_1_alg».proof.Proof.Gen.ReferenceIdeal
import proofs.«145560_j25254407701045_1_alg».proof.Proof.Gen.ReferenceIdeal.Run
import proofs.«145560_j25254407701045_1_alg».proof.Proof.Gen.Pre_finite_inputs
import proofs.«145560_j25254407701045_1_alg».proof.Proof.Bridge
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel on the extended reals rewrote none of its operations: there is nothing to justify. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, Bridge.algebraic⟩

end Cert.Proof

end
